-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x128x64 : Shape := ⟨4, ![16, 128, 128, 64]⟩
abbrev S256x64 : Shape := ⟨2, ![256, 64]⟩
abbrev S_ : Shape := ⟨0, ![]⟩

class Facts : Prop where
  bcast_S_S16x128x128x64 : S_.BroadcastsInDim S16x128x128x64 (![] : Fin 0 → Fin S16x128x128x64.rank)
  reducesTo_S16x128x128x64_S_d0_1_2_3 : S16x128x128x64.ReducesTo [0, 1, 2, 3] S_
  h_S_ : 0 < S_.numel
  bcast_S_S256x64 : S_.BroadcastsInDim S256x64 (![] : Fin 0 → Fin S256x64.rank)
  reducesTo_S256x64_S_d0_1 : S256x64.ReducesTo [0, 1] S_

variable [Facts]

def fn {F : FTy → Type} [FloatOps F] (main_arg0 : FVec F S16x128x128x64 .f32) (main_arg1 : FVec F S256x64 .f32) : IVec S_ 1 :=
  let main_v0 : FVec F S16x128x128x64 .f32 := Host.absf main_arg0
  let main_cst : FVec F S_ .f32 := constant S_ .f32 0x7F800000#32
  let main_v1 : FVec F S16x128x128x64 .f32 := broadcastInDim S16x128x128x64 ![] bcast_S_S16x128x128x64 main_cst
  let main_v2 : IVec S16x128x128x64 1 := cmpf .olt main_v0 main_v1
  let main_c : IVec S_ 1 := constantI S_ 1 1#1
  let main_v3 : IVec S_ 1 := (fun x v => Host.reduce IntOp.andi x v reducesTo_S16x128x128x64_S_d0_1_2_3 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  main_v8
-- ==== Kernel.lean ====
abbrev S16x128x128x64 : Shape := ⟨4, ![16, 128, 128, 64]⟩
abbrev S256x64 : Shape := ⟨2, ![256, 64]⟩
abbrev S262144x64 : Shape := ⟨2, ![262144, 64]⟩
abbrev S64x256 : Shape := ⟨2, ![64, 256]⟩
abbrev S_ : Shape := ⟨0, ![]⟩
abbrev S256 : Shape := ⟨1, ![256]⟩
abbrev S1x256 : Shape := ⟨2, ![1, 256]⟩
abbrev S262144x256 : Shape := ⟨2, ![262144, 256]⟩
abbrev S4096x64 : Shape := ⟨2, ![4096, 64]⟩
abbrev S4096x256 : Shape := ⟨2, ![4096, 256]⟩
abbrev S4096 : Shape := ⟨1, ![4096]⟩
abbrev S4096x1 : Shape := ⟨2, ![4096, 1]⟩
abbrev S16x128x128x256x1 : Shape := ⟨5, ![16, 128, 128, 256, 1]⟩

abbrev nBuf : Space → Nat
  | .hbm => 11
  | .vmem => 6
  | .smem => 0
  | _ => 0

abbrev bufTy : (tb : Table) → Fin (tcTables nBuf tb) → BufTy
  | .hbm, ⟨0, _⟩ => ⟨S16x128x128x64, .f32⟩
  | .hbm, ⟨1, _⟩ => ⟨S256x64, .f32⟩
  | .hbm, ⟨2, _⟩ => ⟨S262144x64, .f32⟩
  | .hbm, ⟨3, _⟩ => ⟨S256x64, .bf16⟩
  | .hbm, ⟨4, _⟩ => ⟨S64x256, .bf16⟩
  | .hbm, ⟨5, _⟩ => ⟨S256x64, .f32⟩
  | .hbm, ⟨6, _⟩ => ⟨S_, .f32⟩
  | .hbm, ⟨7, _⟩ => ⟨S256, .f32⟩
  | .hbm, ⟨8, _⟩ => ⟨S1x256, .f32⟩
  | .hbm, ⟨9, _⟩ => ⟨S262144x256, .f32⟩
  | .hbm, ⟨10, _⟩ => ⟨S16x128x128x256x1, .f32⟩
  | .local _ .vmem, ⟨0, _⟩ => ⟨S4096x64, .f32⟩
  | .local _ .vmem, ⟨1, _⟩ => ⟨S4096x64, .f32⟩
  | .local _ .vmem, ⟨2, _⟩ => ⟨S64x256, .bf16⟩
  | .local _ .vmem, ⟨3, _⟩ => ⟨S1x256, .f32⟩
  | .local _ .vmem, ⟨4, _⟩ => ⟨S4096x256, .f32⟩
  | .local _ .vmem, ⟨5, _⟩ => ⟨S4096x256, .f32⟩
  | _, _ => ⟨S16x128x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x128x128x64_S262144x64 : S16x128x128x64.ShapeCasts S262144x64
  bitsLt_bf16_f32 : FTy.bits .bf16 < FTy.bits .f32
  transposes_S256x64_S64x256_1_0 : S256x64.Transposes [1, 0] S64x256
  reducesTo_S256x64_S256_d1 : S256x64.ReducesTo [1] S256
  h_S_ : 0 < S_.numel
  shapeCasts_S256_S1x256 : S256.ShapeCasts S1x256
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  reduces_S4096x64_S4096 : S4096x64.Reduces [1] S4096
  shapeCasts_S4096_S4096x1 : S4096.ShapeCasts S4096x1
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S4096x1_S4096x256 : S4096x1.Broadcasts S4096x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  shapeCasts_S262144x256_S16x128x128x256x1 : S262144x256.ShapeCasts S16x128x128x256x1
  dot_S4096x64_S64x256_S4096x256_1_0_0_1_n_n_wf : DotDims.WF S4096x64 S64x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S262144x64.size a
  hwx0_0 : ∀ i : grid0.Coords, EltTy.bits .f32 = 32 ∨ (Rect.block (s := S262144x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .bf16 = 32 ∨ (Rect.block (s := S64x256) S64x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S262144x256.size a
  hwx0_3 : ∀ i : grid0.Coords, EltTy.bits .f32 = 32 ∨ (Rect.block (s := S262144x256) S4096x256.size (cc0_transform_3 i) (hinb0_3 i)).WholeWords (EltTy.packing .f32)

variable [Facts₀]

def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf

abbrev win0_0 : Pipeline.Window sig grid0 :=
  Pipeline.Window.ofSpec (Memref.whole main_v0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x128x128x64 : Shape := ⟨4, ![16, 128, 128, 64]⟩
abbrev S256x64 : Shape := ⟨2, ![256, 64]⟩
abbrev S_ : Shape := ⟨0, ![]⟩
abbrev S16x128x128 : Shape := ⟨3, ![16, 128, 128]⟩
abbrev S16x128x128x1 : Shape := ⟨4, ![16, 128, 128, 1]⟩
abbrev S256 : Shape := ⟨1, ![256]⟩
abbrev S16x128x128x256 : Shape := ⟨4, ![16, 128, 128, 256]⟩
abbrev S1x1x1x256 : Shape := ⟨4, ![1, 1, 1, 256]⟩
abbrev S16x128x128x256x1 : Shape := ⟨5, ![16, 128, 128, 256, 1]⟩

abbrev nBuf : Space → Nat
  | .hbm => 19
  | .vmem => 0
  | .smem => 0
  | _ => 0

abbrev bufTy : (tb : Table) → Fin (tcTables nBuf tb) → BufTy
  | .hbm, ⟨0, _⟩ => ⟨S16x128x128x64, .f32⟩
  | .hbm, ⟨1, _⟩ => ⟨S256x64, .f32⟩
  | .hbm, ⟨2, _⟩ => ⟨S16x128x128x64, .f32⟩
  | .hbm, ⟨3, _⟩ => ⟨S_, .f32⟩
  | .hbm, ⟨4, _⟩ => ⟨S16x128x128, .f32⟩
  | .hbm, ⟨5, _⟩ => ⟨S16x128x128x1, .f32⟩
  | .hbm, ⟨6, _⟩ => ⟨S256x64, .f32⟩
  | .hbm, ⟨7, _⟩ => ⟨S_, .f32⟩
  | .hbm, ⟨8, _⟩ => ⟨S256, .f32⟩
  | .hbm, ⟨9, _⟩ => ⟨S16x128x128x256, .f32⟩
  | .hbm, ⟨10, _⟩ => ⟨S1x1x1x256, .f32⟩
  | .hbm, ⟨11, _⟩ => ⟨S16x128x128x256, .f32⟩
  | .hbm, ⟨12, _⟩ => ⟨S16x128x128x256, .f32⟩
  | .hbm, ⟨13, _⟩ => ⟨S16x128x128x256, .f32⟩
  | .hbm, ⟨14, _⟩ => ⟨S_, .f32⟩
  | .hbm, ⟨15, _⟩ => ⟨S16x128x128x256, .f32⟩
  | .hbm, ⟨16, _⟩ => ⟨S16x128x128x256, .f32⟩
  | .hbm, ⟨17, _⟩ => ⟨S16x128x128x256, .f32⟩
  | .hbm, ⟨18, _⟩ => ⟨S16x128x128x256x1, .f32⟩
  | _, _ => ⟨S16x128x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  reducesTo_S16x128x128x64_S16x128x128_d3 : S16x128x128x64.ReducesTo [3] S16x128x128
  h_S_ : 0 < S_.numel
  bcast_S16x128x128_S16x128x128x1_0_1_2 : S16x128x128.BroadcastsInDim S16x128x128x1 (![0, 1, 2] : Fin 3 → Fin S16x128x128x1.rank)
  reducesTo_S256x64_S256_d1 : S256x64.ReducesTo [1] S256
  bcast_S256_S1x1x1x256_3 : S256.BroadcastsInDim S1x1x1x256 (![3] : Fin 1 → Fin S1x1x1x256.rank)
  bcast_S16x128x128x1_S16x128x128x256_0_1_2_3 : S16x128x128x1.BroadcastsInDim S16x128x128x256 (![0, 1, 2, 3] : Fin 4 → Fin S16x128x128x256.rank)
  bcast_S1x1x1x256_S16x128x128x256_0_1_2_3 : S1x1x1x256.BroadcastsInDim S16x128x128x256 (![0, 1, 2, 3] : Fin 4 → Fin S16x128x128x256.rank)
  bcast_S_S16x128x128x256 : S_.BroadcastsInDim S16x128x128x256 (![] : Fin 0 → Fin S16x128x128x256.rank)
  bcast_S16x128x128x256_S16x128x128x256x1_0_1_2_3 : S16x128x128x256.BroadcastsInDim S16x128x128x256x1 (![0, 1, 2, 3] : Fin 4 → Fin S16x128x128x256x1.rank)
  dot_S16x128x128x64_S256x64_S16x128x128x256_3_1_012_0_n_n_wf : DotDims.WF S16x128x128x64 S256x64 S16x128x128x256 [3] [1] [0, 1, 2] [0] [] []

variable [Facts₀]

def dot_S16x128x128x64_S256x64_S16x128x128x256_3_1_012_0_n_n : DotDims S16x128x128x64 S256x64 S16x128x128x256 where
  lhsContracting := [3]
  rhsContracting := [1]
  lhsNonContracting := [0, 1, 2]
  rhsNonContracting := [0]
  lhsBatch := []
  rhsBatch := []
  wf := dot_S16x128x128x64_S256x64_S16x128x128x256_3_1_012_0_n_n_wf

class Facts : Prop extends Facts₀ where

variable [Facts]
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.DistanceTable.lean ====
/-
  The table of squared Euclidean distances between the rows of a matrix X (n×d) and a family of o prototypes,
  by the expansion ‖x − p‖² = ‖x‖² + ‖p‖² − 2·⟨x, p⟩. The prototypes enter transposed, as a d×o matrix, and their
  squared norms as a 1×o row computed beforehand; the row's own squared norm and the inner product are sums over
  the d coordinates. Everything is on the extended reals; nothing here mentions a program.
-/
import Idealize.ShloMosaic.PureOps.Ideal.Laws
import Idealize.ShloMosaic.Lib.ValueIdx

open scoped BigOperators

noncomputable section

namespace Cert.DistanceTable

open Idealize.ShloMosaic Idealize.ShloMosaic.ValueIdx

/-- The single-precision word of 2.0, the factor of the cross term (never evaluated: both programs carry the same word). -/
abbrev twoWord : EReal := Ideal.ofBits .f32 0x40000000#32

/-- Entry (a, b): (Σₖ X(a,k)² + P(0,b)) − 2 · Σₖ X(a,k) · WT(k,b), grouped as both programs group it. -/
def entry {n d o : Nat} (X : (⟨2, ![n, d]⟩ : Shape).Idx → EReal) (WT : (⟨2, ![d, o]⟩ : Shape).Idx → EReal)
    (P : (⟨2, ![1, o]⟩ : Shape).Idx → EReal) (a : Fin n) (b : Fin o) : EReal :=
  (∑ k : Fin d, X (ix2 a k) * X (ix2 a k) + P (ix2 0 b)) - twoWord * ∑ k : Fin d, X (ix2 a k) * WT (ix2 k b)

/-- The whole n×o table. -/
def table {n d o : Nat} (X : (⟨2, ![n, d]⟩ : Shape).Idx → EReal) (WT : (⟨2, ![d, o]⟩ : Shape).Idx → EReal)
    (P : (⟨2, ![1, o]⟩ : Shape).Idx → EReal) : (⟨2, ![n, o]⟩ : Shape).Idx → EReal :=
  fun i => entry X WT P (i 0) (i 1)

theorem table_ix2 {n d o : Nat} (X : (⟨2, ![n, d]⟩ : Shape).Idx → EReal) (WT : (⟨2, ![d, o]⟩ : Shape).Idx → EReal)
    (P : (⟨2, ![1, o]⟩ : Shape).Idx → EReal) (a : Fin n) (b : Fin o) : table X WT P (ix2 a b) = entry X WT P a b := rfl

end Cert.DistanceTable

end
-- ==== Proof.Body.lean ====
/-
  One block of rows through the kernel body: for a block x of 4096 rows of 64 coordinates, the prototypes transposed
  w (64×256) and the row of their squared norms s (1×256), the stored value at (p, q) is
  (Σₖ x(p,k)² + s(0,q)) − 2 · Σₖ x(p,k) · w(k,q): the lane sum of the squares re-shaped to a column and spread over
  the 256 columns, the row of norms spread over the 4096 rows, and the matrix product into a zero accumulator read
  as the sum over the contracted coordinate. The change of format in front of the product is the identity here.
-/
import proofs.«157849_j14267881357681_1_alg».proof.Proof.Gen.KernelIdeal.Skeleton
import proofs.«157849_j14267881357681_1_alg».proof.Proof.LibBlockReads
import proofs.«157849_j14267881357681_1_alg».proof.Proof.LibRowReductions
import proofs.«157849_j14267881357681_1_alg».proof.Proof.DistanceTable

open scoped BigOperators

noncomputable section

namespace Cert.KernelIdeal.Body

open Cert.KernelIdeal Cert.KernelIdeal.Gen Idealize.ShloMosaic Idealize.ShloMosaic.ValueIdx
open Cert.Lib.BlockReads Cert.Lib.RowReductions Cert.DistanceTable

theorem stored_apply (x : Vec Ideal S4096x64 .f32) (w : Vec Ideal S64x256 .bf16) (s : Vec Ideal S1x256 .f32)
    (p : Fin 4096) (q : Fin 256) :
    k0_pay1 (F := Ideal) x w s (ix2 p q) = entry x w s p q := by
  unfold k0_pay1
  simp only [shapeCast_self]
  show (broadcastTo S4096x256 (shapeCast S4096x1 (multiReduction (F := Ideal) .add [1] S4096 (mulf x x) 0x00000000#32
          reduces_S4096x64_S4096 _ _) shapeCasts_S4096_S4096x1) broadcasts_S4096x1_S4096x256 (ix2 p q)
        + broadcastTo S4096x256 s broadcasts_S1x256_S4096x256 (ix2 p q))
      - twoWord * matmul (F := Ideal) dot_S4096x64_S64x256_S4096x256_1_0_0_1_n_n none (truncf (F := Ideal) .bf16 x bitsLt_bf16_f32) w
          (constant (F := Ideal) S4096x256 .f32 0x00000000#32) (ix2 p q) = _
  unfold entry
  refine congrArg₂ (· - ·) (congrArg₂ (· + ·) ?_ ?_) (congrArg (twoWord * ·) ?_)
  · exact (broadcast_col_apply _ _ p q).trans ((shapeCast_col_apply _ _ p).trans (rowsum_apply (mulf x x) _ _ _ _ p))
  · exact broadcast_row_apply _ _ p q
  · exact matmul_zero_rows_apply _ rfl rfl rfl rfl rfl rfl none _ _ p q

end Cert.KernelIdeal.Body

end
-- ==== Proof.Blocks.lean ====
/-
  From blocks to the whole table. Grid point t reads rows 4096·t … 4096·t + 4095 of the 262144×64 row array, the
  whole transposed prototype matrix and the whole row of norms, and writes rows 4096·t … 4096·t + 4095 of the
  262144×256 output. What it writes is the same rows of ONE table (Cert.DistanceTable.table) of the three arrays as the
  launch finds them; the 64 blocks of rows cover the output, so after the launch the output IS that table.
-/
import proofs.«157849_j14267881357681_1_alg».proof.Proof.Gen.KernelIdeal.Frame
import proofs.«157849_j14267881357681_1_alg».proof.Proof.Body
import Idealize.ShloMosaic.Lib.Pipeline.Value

open scoped BigOperators

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.DistanceTable

variable (m : (ℓ : Loc nD τ sig) → Buf (Elt Ideal) ℓ)

theorem zero_offsets : (![0, 0] : Fin 2 → Nat) = fun _ => 0 := funext fun a => by fin_cases a <;> rfl

/-- The block indices over the grid: the rows and the output move with the point, the other two windows stay. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of block t is row 4096·t + p of the whole array. -/
def rowOf (t : Fin cfg0.N) (p : Fin 4096) : Fin 262144 :=
  ⟨t.val * 4096 + p.val, by have h : cfg0.N = 64 := N_0; have := t.isLt; have := p.isLt; omega⟩

/-- The block of rows point t reads, at (p, k), is the row array at (4096·t + p, k). -/
theorem rows_blk (c : Dev nD) (t : Fin cfg0.N) (p : Fin 4096) (k : Fin 64) :
    iblk m c 0 t (ix2 p k) = V m c main_v0 (ix2 (rowOf t p) k) := by
  obtain ⟨e0, e1, -⟩ := block_indices t
  show V m c main_v0 (((cfg0.win 0).blk t).view.emb (ix2 p k)) = _
  refine congrArg _ (funext fun a => Fin.ext ?_)
  match a with
  | ⟨0, _⟩ => show win0_0.index t (0 : Fin 2) * 4096 + 1 * p.val = t.val * 4096 + p.val; rw [e0]; omega
  | ⟨1, _⟩ => show win0_0.index t (1 : Fin 2) * 64 + 1 * k.val = k.val; rw [e1]; omega

/-- Every point reads the whole transposed prototype matrix. -/
theorem protoT_blk (c : Dev nD) (t : Fin cfg0.N) (k : Fin 64) (q : Fin 256) :
    iblk m c 1 t (ix2 k q) = V m c main_v2 (ix2 k q) := by
  obtain ⟨-, -, e2, e3, -⟩ := block_indices t
  show V m c main_v2 (((cfg0.win 1).blk t).view.emb (ix2 k q)) = _
  refine congrArg _ (funext fun a => Fin.ext ?_)
  match a with
  | ⟨0, _⟩ => show win0_1.index t (0 : Fin 2) * 64 + 1 * k.val = k.val; rw [e2]; omega
  | ⟨1, _⟩ => show win0_1.index t (1 : Fin 2) * 256 + 1 * q.val = q.val; rw [e3]; omega

/-- Every point reads the whole row of norms. -/
theorem norms_blk (c : Dev nD) (t : Fin cfg0.N) (z : Fin 1) (q : Fin 256) :
    iblk m c 2 t (ix2 z q) = V m c main_v5 (ix2 z q) := by
  obtain ⟨-, -, -, -, e4, e5, -⟩ := block_indices t
  show V m c main_v5 (((cfg0.win 2).blk t).view.emb (ix2 z q)) = _
  refine congrArg _ (funext fun a => Fin.ext ?_)
  match a with
  | ⟨0, _⟩ => show win0_2.index t (0 : Fin 2) * 1 + 1 * z.val = z.val; rw [e4]; omega
  | ⟨1, _⟩ => show win0_2.index t (1 : Fin 2) * 256 + 1 * q.val = q.val; rw [e5]; omega

/-- Position (p, q) of the block point t writes is position (4096·t + p, q) of the output. -/
theorem out_blk (t : Fin cfg0.N) (p : Fin 4096) (q : Fin 256) :
    ((cfg0.win 3).blk t).view.emb (ix2 p q) = ix2 (rowOf t p) q := by
  obtain ⟨-, -, -, -, -, -, e6, e7⟩ := block_indices t
  refine funext fun a => Fin.ext ?_
  match a with
  | ⟨0, _⟩ => show win0_3.index t (0 : Fin 2) * 4096 + 1 * p.val = t.val * 4096 + p.val; rw [e6]; omega
  | ⟨1, _⟩ => show win0_3.index t (1 : Fin 2) * 256 + 1 * q.val = q.val; rw [e7]; omega

/-- What point t writes back is block t of the table of the three arrays as the launch finds them. -/
theorem written_eq (c : Dev nD) (t : Fin cfg0.N) :
    (dats m 0 c).flushed 3 t
      = ((cfg0.win 3).blk t).view.read (Elt Ideal) (table (V m c main_v0) (V m c main_v2) (V m c main_v5)) := by
  show (cfg0.win 3).cut (grid0.coords t) ((dats m 0 c).after 3 t) = _
  rw [after0_3]
  unfold out0_3
  rw [View.canon_unit_zero zero_offsets]
  simp only [View.ld_unit_zero (S := S4096x64) zero_offsets, View.ld_unit_zero (S := S64x256) zero_offsets,
    View.ld_unit_zero (S := S1x256) zero_offsets]
  funext j
  obtain ⟨p, q, rfl⟩ : ∃ (p : Fin 4096) (q : Fin 256), j = ix2 p q := ⟨j 0, j 1, eq_ix2 j⟩
  show k0_pay1 (F := Ideal) (iblk m c 0 t) (iblk m c 1 t) (iblk m c 2 t) (ix2 p q)
    = table (V m c main_v0) (V m c main_v2) (V m c main_v5) (((cfg0.win 3).blk t).view.emb (ix2 p q))
  rw [out_blk t p q, table_ix2]
  refine (Body.stored_apply (iblk m c 0 t) (iblk m c 1 t) (iblk m c 2 t) p q).trans ?_
  unfold entry
  simp only [rows_blk m c t, protoT_blk m c t, norms_blk m c t]

/-- An index of the output is in point t's block iff each coordinate is in the block's range on its axis. -/
theorem mem_blk (t : Fin cfg0.N) (i : S262144x256.Idx) :
    i ∈ ((cfg0.win 3).blk t).view.set ↔ ∀ a : Fin 2, win0_3.index t a * S4096x256.size a ≤ (i a).val
      ∧ (i a).val < win0_3.index t a * S4096x256.size a + S4096x256.size a := by
  show i ∈ ((View.whole main_v6).slice (win0_3.rect t)).set ↔ _
  rw [View.set_slice_whole, Rect.mem_set_unit]
  exact Iff.rfl

/-- Row r of the output lies in the block of point r / 4096. -/
theorem covered (i : S262144x256.Idx) :
    ∃ t : Fin cfg0.N, (cfg0.win 3).flush t = true ∧ i ∈ ((cfg0.win 3).blk t).view.set := by
  have hi0 : (i 0).val < 262144 := (i 0).isLt
  have hi1 : (i 1).val < 256 := (i 1).isLt
  have hN : cfg0.N = 64 := N_0
  obtain ⟨t, ht⟩ : ∃ t : Fin cfg0.N, t.val = (i 0).val / 4096 := ⟨⟨(i 0).val / 4096, by rw [hN]; omega⟩, rfl⟩
  obtain ⟨-, -, -, -, -, -, e6, e7⟩ := block_indices t
  refine ⟨t, flush0_3 t, ?_⟩
  rw [mem_blk]
  intro a
  match a with
  | ⟨0, _⟩ =>
    show win0_3.index t (0 : Fin 2) * 4096 ≤ (i 0).val ∧ (i 0).val < win0_3.index t (0 : Fin 2) * 4096 + 4096
    rw [e6, ht]; omega
  | ⟨1, _⟩ =>
    show win0_3.index t (1 : Fin 2) * 256 ≤ (i 1).val ∧ (i 1).val < win0_3.index t (1 : Fin 2) * 256 + 256
    rw [e7]; omega

/-- After the launch the output array is the table of the three arrays as the launch finds them. -/
theorem table_written (c : Dev nD) :
    (dats m 0 c).arrAt 3 cfg0.N = table (V m c main_v0) (V m c main_v2) (V m c main_v5) :=
  (dats m 0 c).arrAt_eq_of_cover 3 _ (fun t _ => written_eq m c t) covered

end Cert.KernelIdeal.Blocks

end
-- ==== Proof.Around.lean ====
/-
  The arrays around the one launch. Before it the host lays the pixels out as 262144 rows of 64 coordinates (a
  re-shaping of x), transposes the prototypes (after a change of format) into a 64×256 matrix, and sums the squares
  of each prototype's coordinates into a row of 256 norms; after it the host re-shapes the 262144×256 table the
  launch wrote into the five-axis result.
-/
import proofs.«157849_j14267881357681_1_alg».proof.Proof.Gen.KernelIdeal.Frame
import Idealize.ShloMosaic.PureOps.Ideal.Laws

noncomputable section

namespace Cert.KernelIdeal.Around

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The rows the launch reads: x re-shaped to 262144×64. -/
theorem rows_eq (c : Dev nD) :
    (V m c main_v0 : S262144x64.Idx → EReal)
      = shapeCast S262144x64 (m ((c : Thread nD τ).loc main_arg0)) shapeCasts_S16x128x128x64_S262144x64 := by
  show StableHlo.after hostOps0 (fun b => m (c, b)) (Proc.devRef .tc main_v0) = _
  after_results; rfl

/-- The prototypes as the launch reads them: omega, format changed, transposed to 64×256. -/
theorem protoT_eq (c : Dev nD) :
    (V m c main_v2 : S64x256.Idx → EReal)
      = transpose S64x256 [1, 0] (truncf (F := Ideal) .bf16 (m ((c : Thread nD τ).loc main_arg1)) bitsLt_bf16_f32)
          transposes_S256x64_S64x256_1_0 := by
  show StableHlo.after hostOps0 (fun b => m (c, b)) (Proc.devRef .tc main_v2) = _
  after_results

/-- The row of squared norms of the prototypes. -/
theorem norms_eq (c : Dev nD) :
    (V m c main_v5 : S1x256.Idx → EReal)
      = shapeCast S1x256 (Host.reduceAdd (F := Ideal) (mulf (m ((c : Thread nD τ).loc main_arg1)) (m ((c : Thread nD τ).loc main_arg1)))
          (constant (F := Ideal) S_ .f32 0x00000000#32) reducesTo_S256x64_S256_d1 h_S_) shapeCasts_S256_S1x256 := by
  show StableHlo.after hostOps0 (fun b => m (c, b)) (Proc.devRef .tc main_v5) = _
  after_results; rfl

/-- The result: the launch's table re-shaped to 16×128×128×256×1. -/
theorem result_eq (c : Dev nD) :
    (Pipeline.afterTail₀ cfgs (dats m) 0 (V0 m) [hostOps1] c main_v7 : S16x128x128x256x1.Idx → EReal)
      = shapeCast S16x128x128x256x1 ((dats m 0 c).arrAt 3 cfg0.N) shapeCasts_S262144x256_S16x128x128x256x1 := by
  unfold Pipeline.afterTail₀
  show StableHlo.after hostOps1 _ (Proc.devRef .tc main_v7) = _
  after_results
  exact congrArg (fun T => shapeCast S16x128x128x256x1 T shapeCasts_S262144x256_S16x128x128x256x1)
    (Pipeline.withArrays_arr spec0 launch0.win.arr_inj c (V0 m c) (fun w => (dats m 0 c).arrAt w cfg0.N) 3)

end Cert.KernelIdeal.Around

end
-- ==== Proof.Whole.lean ====
/-
  The kernel's program as one function of x and omega: the five-axis result is the re-shaping of the distance table
  of the re-shaped rows, the transposed prototypes and the row of their squared norms; and its run ends with the
  result buffer at that function and both arguments as they were.
-/
import proofs.«157849_j14267881357681_1_alg».proof.Proof.Blocks
import proofs.«157849_j14267881357681_1_alg».proof.Proof.Around

noncomputable section

namespace Cert.KernelIdeal.Whole

open Cert.KernelIdeal Cert.KernelIdeal.Gen Idealize.ShloMosaic Idealize.ShloMosaic.TcCoe Idealize.SL.Sem
open Idealize.ShloMosaic.Pipeline (Dat)
open Cert.DistanceTable

/-- The result array as a function of the two arguments. -/
def result (x : S16x128x128x64.Idx → EReal) (omega : S256x64.Idx → EReal) : S16x128x128x256x1.Idx → EReal :=
  shapeCast S16x128x128x256x1
    (table (shapeCast S262144x64 x shapeCasts_S16x128x128x64_S262144x64)
      (transpose S64x256 [1, 0] (truncf (F := Ideal) .bf16 omega bitsLt_bf16_f32) transposes_S256x64_S64x256_1_0)
      (shapeCast S1x256 (Host.reduceAdd (F := Ideal) (mulf omega omega) (constant (F := Ideal) S_ .f32 0x00000000#32)
        reducesTo_S256x64_S256_d1 h_S_) shapeCasts_S256_S1x256))
    shapeCasts_S262144x256_S16x128x128x256x1

variable (m : (ℓ : Loc nD τ sig) → Buf (Elt Ideal) ℓ) (ρ : Dev nD → PrngReg)

/-- What the host's last re-shaping leaves in the result buffer. -/
theorem tail_eq (c : Dev nD) :
    Pipeline.afterTail₀ cfgs (dats m) 0 (V0 m) [hostOps1] c main_v7
      = result (m ((c : Thread nD τ).loc main_arg0)) (m ((c : Thread nD τ).loc main_arg1)) := by
  refine (Around.result_eq m c).trans ?_
  rw [Blocks.table_written, Around.rows_eq, Around.protoT_eq, Around.norms_eq]
  rfl

/-- Every weakly fair execution terminates with the result buffer at `result` of the arguments, the arguments unchanged. -/
theorem run : θ_run defs (onTc (τ := τ) (main (F := Ideal))) ⟨m, fun _ => 0, ρ⟩ fun r => ∀ c : Dev nD,
      r.2.mem ((c.tc : Thread nD τ).loc main_v7)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Whole

end
-- ==== Proof.Bridge.lean ====
/-
  The two programs compute one function. At the result index (b, h, w, o, 0) the kernel's program reads row
  (b·128 + h)·128 + w of the re-shaped pixels — that row's coordinate k is x(b, h, w, k) —, column o of the transposed
  prototypes — omega(o, k) — and entry o of the row of norms — 0 + Σₖ omega(o, k)²; the reference reads the same
  entries through its broadcasts and its contraction of x's last axis with omega's. Both are
  (Σₖ x(b,h,w,k)² + Σₖ omega(o,k)²) − 2 · Σₖ x(b,h,w,k) · omega(o,k), the reference's first sum started from a zero.
-/
import proofs.«157849_j14267881357681_1_alg».proof.Proof.Whole
import proofs.«157849_j14267881357681_1_alg».proof.Proof.Gen.ReferenceIdeal.Read

open scoped BigOperators

noncomputable section

namespace Cert.Bridge

open Idealize.ShloMosaic Idealize.ShloMosaic.ValueIdx
open Cert.DistanceTable Cert.Lib.RowReductions
open Cert.ReferenceIdeal (S16x128x128x64 S256x64 S16x128x128x256x1)

/-- The row of the 262144×64 array that holds pixel (b, h, w). -/
def pixelRow (b : Fin 16) (h : Fin 128) (w : Fin 128) : Fin 262144 :=
  ⟨(b.val * 128 + h.val) * 128 + w.val, by have := b.isLt; have := h.isLt; have := w.isLt; omega⟩

/-- The kernel's program at a result index, as sums over the 64 coordinates. -/
theorem kernel_apply (x : S16x128x128x64.Idx → EReal) (omega : S256x64.Idx → EReal)
    (b : Fin 16) (h : Fin 128) (w : Fin 128) (o : Fin 256) (z : Fin 1) :
    Cert.KernelIdeal.Whole.result x omega (ix5 b h w o z)
      = (∑ k : Fin 64, x (ix4 b h w k) * x (ix4 b h w k)
          + (Ideal.ofBits .f32 0x00000000#32 + ∑ k : Fin 64, omega (ix2 o k) * omega (ix2 o k)))
        - twoWord * ∑ k : Fin 64, x (ix4 b h w k) * omega (ix2 o k) := by
  unfold Cert.KernelIdeal.Whole.result
  refine (shapeCast_apply _ _ (ix5 b h w o z) (ix2 (pixelRow b h w) o) ?_).trans ?_
  · rw [Shape.rowMajor_val_two, Shape.rowMajor_val_five]
    show ((b.val * 128 + h.val) * 128 + w.val) * 256 + o.val
      = ((((b.val * 128 + h.val) * 128 + w.val) * 256 + o.val) * 1 + z.val)
    have := z.isLt; omega
  rw [table_ix2]
  unfold entry
  have hrow : ∀ k : Fin 64, shapeCast Cert.KernelIdeal.S262144x64 x Cert.KernelIdeal.Gen.shapeCasts_S16x128x128x64_S262144x64
      (ix2 (pixelRow b h w) k) = x (ix4 b h w k) := fun k => by
    refine shapeCast_apply x _ _ _ ?_
    rw [Shape.rowMajor_val_two, Shape.rowMajor_val_four]
    show ((b.val * 128 + h.val) * 128 + w.val) * 64 + k.val = ((b.val * 128 + h.val) * 128 + w.val) * 64 + k.val
    rfl
  have hcol : ∀ k : Fin 64, transpose Cert.KernelIdeal.S64x256 [1, 0] (truncf (F := Ideal) .bf16 omega Cert.KernelIdeal.Gen.bitsLt_bf16_f32)
      Cert.KernelIdeal.Gen.transposes_S256x64_S64x256_1_0 (ix2 k o) = omega (ix2 o k) := fun k =>
    transpose_apply [1, 0] _ _ (ix2 k o) (ix2 o k) fun a => by
      match a with
      | ⟨0, _⟩ => rfl
      | ⟨1, _⟩ => rfl
  have hnorm : shapeCast Cert.KernelIdeal.S1x256 (Host.reduceAdd (F := Ideal) (mulf omega omega)
        (constant (F := Ideal) Cert.KernelIdeal.S_ .f32 0x00000000#32) Cert.KernelIdeal.Gen.reducesTo_S256x64_S256_d1 Cert.KernelIdeal.Gen.h_S_)
        Cert.KernelIdeal.Gen.shapeCasts_S256_S1x256 (ix2 0 o)
      = Ideal.ofBits .f32 0x00000000#32 + ∑ k : Fin 64, omega (ix2 o k) * omega (ix2 o k) := by
    refine (shapeCast_rowvec_apply _ _ o).trans ?_
    refine (Cert.ReferenceIdeal.Read.val_main_v4_apply omega (ix1 o)).trans ?_
    refine congrArg (_ + ·) (Finset.sum_congr rfl fun k _ => ?_)
    have e : Cert.ReferenceIdeal.Read.idx_main_v4 (ix1 o) k = ix2 o k :=
      funext fun a => Fin.ext (by match a with | ⟨0, _⟩ => rfl | ⟨1, _⟩ => rfl)
    rw [e]; rfl
  simp only [hrow, hcol, hnorm]

/-- The reference at a result index, as sums over the 64 coordinates. -/
theorem reference_apply (x : S16x128x128x64.Idx → EReal) (omega : S256x64.Idx → EReal)
    (b : Fin 16) (h : Fin 128) (w : Fin 128) (o : Fin 256) (z : Fin 1) :
    Cert.ReferenceIdeal.Read.val_main_v13 (F := Ideal) x omega (ix5 b h w o z)
      = ((Ideal.ofBits .f32 0x00000000#32 + ∑ k : Fin 64, x (ix4 b h w k) * x (ix4 b h w k))
          + (Ideal.ofBits .f32 0x00000000#32 + ∑ k : Fin 64, omega (ix2 o k) * omega (ix2 o k)))
        - twoWord * ∑ k : Fin 64, x (ix4 b h w k) * omega (ix2 o k) := by
  have e13 : Cert.ReferenceIdeal.Read.idx_main_v13 (ix5 b h w o z) = ix4 b h w o :=
    funext fun a => Fin.ext (by match a with | ⟨0, _⟩ => rfl | ⟨1, _⟩ => rfl | ⟨2, _⟩ => rfl | ⟨3, _⟩ => rfl)
  have e1 : ∀ k : Fin 64, Cert.ReferenceIdeal.Read.idx_main_v1 (Cert.ReferenceIdeal.Read.idx_main_v2
      (Cert.ReferenceIdeal.Read.idx_main_v7 (ix4 b h w o))) k = ix4 b h w k := fun k =>
    funext fun a => Fin.ext (by match a with | ⟨0, _⟩ => rfl | ⟨1, _⟩ => rfl | ⟨2, _⟩ => rfl | ⟨3, _⟩ => rfl)
  have e4 : ∀ k : Fin 64, Cert.ReferenceIdeal.Read.idx_main_v4 (Cert.ReferenceIdeal.Read.idx_main_v6
      (Cert.ReferenceIdeal.Read.idx_main_v8 (ix4 b h w o))) k = ix2 o k := fun k =>
    funext fun a => Fin.ext (by match a with | ⟨0, _⟩ => rfl | ⟨1, _⟩ => rfl)
  have e5l : ∀ k : Fin 64, Cert.ReferenceIdeal.Read.lidx_main_v5 (ix4 b h w o) k = ix4 b h w k := fun k =>
    funext fun a => Fin.ext (by match a with | ⟨0, _⟩ => rfl | ⟨1, _⟩ => rfl | ⟨2, _⟩ => rfl | ⟨3, _⟩ => rfl)
  have e5r : ∀ k : Fin 64, Cert.ReferenceIdeal.Read.ridx_main_v5 (ix4 b h w o) k = ix2 o k := fun k =>
    funext fun a => Fin.ext (by match a with | ⟨0, _⟩ => rfl | ⟨1, _⟩ => rfl)
  rw [Cert.ReferenceIdeal.Read.val_main_v13_apply, e13, Cert.ReferenceIdeal.Read.val_main_v12_apply,
    Cert.ReferenceIdeal.Read.val_main_v9_apply, Cert.ReferenceIdeal.Read.val_main_v11_apply,
    Cert.ReferenceIdeal.Read.val_main_v7_apply, Cert.ReferenceIdeal.Read.val_main_v2_apply,
    Cert.ReferenceIdeal.Read.val_main_v1_apply, Cert.ReferenceIdeal.Read.val_main_v8_apply,
    Cert.ReferenceIdeal.Read.val_main_v6_apply, Cert.ReferenceIdeal.Read.val_main_v4_apply,
    Cert.ReferenceIdeal.Read.val_main_v10_apply, Cert.ReferenceIdeal.Read.val_main_v5_apply]
  simp only [e1, e4, e5l, e5r, Cert.ReferenceIdeal.Read.val_main_v0_apply, Cert.ReferenceIdeal.Read.val_main_v3_apply,
    Cert.ReferenceIdeal.Read.val_main_cst_apply, Cert.ReferenceIdeal.Read.val_main_cst_0_apply,
    Cert.ReferenceIdeal.Read.val_main_cst_1_apply, Ideal.mulf_def, Ideal.addf_def, Ideal.subf_def, Ideal.ofBits_def]

/-- The kernel's program and the reference are one function of x and omega: the reference's extra zero in front of
    the pixel's squared norm is the only difference, and 0 + a = a. -/
theorem result_eq (x : S16x128x128x64.Idx → EReal) (omega : S256x64.Idx → EReal) :
    Cert.KernelIdeal.Whole.result x omega = Cert.ReferenceIdeal.Read.val_main_v13 (F := Ideal) x omega := by
  funext i
  obtain ⟨b, h, w, o, z, rfl⟩ : ∃ (b : Fin 16) (h : Fin 128) (w : Fin 128) (o : Fin 256) (z : Fin 1), i = ix5 b h w o z :=
    ⟨i 0, i 1, i 2, i 3, i 4, eq_ix5 i⟩
  rw [kernel_apply, reference_apply, Ideal.ofBits_zero_f32]
  simp only [zero_add]

end Cert.Bridge

end
-- ==== Proof.lean ====
/-
  Squared distances from every pixel's feature vector to every prototype, by ‖x‖² + ‖p‖² − 2·⟨x, p⟩.

  The kernel's program lays x out as 262144 rows of 64 coordinates, transposes omega (after a change of format that is
  the identity on the extended reals) and sums the squares of each prototype's coordinates on the host; its one
  launch walks the rows in 64 blocks of 4096 and stores, for row r and prototype o,
  (Σₖ X(r,k)² + P(o)) − 2 · Σₖ X(r,k) · omegaᵀ(k,o); the host re-shapes the 262144×256 table to 16×128×128×256×1.
  The reference computes (0 + Σₖ x(b,h,w,k)²) + (0 + Σₖ omega(o,k)²) − 2 · Σₖ x(b,h,w,k) · omega(o,k) with broadcasts and one
  contraction. Row (b·128 + h)·128 + w of X is pixel (b, h, w), so the two agree entry by entry; the only law used is
  0 + a = a, which holds at the infinities too, so the finiteness of the inputs is never opened.

  The three frames are the generated ones (the reference's is its generated run with the result dropped); the
  idealized kernel is the kernel's own text read on the extended reals, so the idealization conjunct is trivial.
-/
import proofs.«157849_j14267881357681_1_alg».proof.Defs
import proofs.«157849_j14267881357681_1_alg».proof.Proof.Gen.Kernel
import proofs.«157849_j14267881357681_1_alg».proof.Proof.Gen.Kernel.Frame
import proofs.«157849_j14267881357681_1_alg».proof.Proof.Gen.KernelIdeal
import proofs.«157849_j14267881357681_1_alg».proof.Proof.Gen.KernelIdeal.Frame
import proofs.«157849_j14267881357681_1_alg».proof.Proof.Gen.ReferenceIdeal
import proofs.«157849_j14267881357681_1_alg».proof.Proof.Gen.ReferenceIdeal.Run
import proofs.«157849_j14267881357681_1_alg».proof.Proof.Gen.ReferenceIdeal.Read
import proofs.«157849_j14267881357681_1_alg».proof.Proof.Gen.Pre_finite_inputs
import proofs.«157849_j14267881357681_1_alg».proof.Proof.Whole
import proofs.«157849_j14267881357681_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both runs end with the result buffer at one function of the (agreeing) arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v13_eq _ _).trans (Cert.Bridge.result_eq _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
